-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S8x256 : S_.BroadcastsInDim S8x256 (![] : Fin 0 → Fin S8x256.rank)
  reducesTo_S8x256_S_d0_1 : S8x256.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S8x256 1) : IVec S_ 1 :=
  let main_c_5 : IVec S_ 1 := constantI S_ 1 1#1
  let main_v17 : IVec S_ 1 := (fun x v => Host.reduce IntOp.andi x v reducesTo_S8x256_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S8192x128 .f32) (main_arg1 : FVec F S256x128 .f32) (main_arg2 : FVec F S256 .f32) (main_arg3 : FVec F S8x256 .f32) (main_arg4 : FVec F S8 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S8x256 .f32 := Host.absf main_arg3
  let main_cst_4 : FVec F S_ .f32 := constant S_ .f32 0x7F800000#32
  let main_v15 : FVec F S8x256 .f32 := broadcastInDim S8x256 ![] bcast_S_S8x256 main_cst_4
  let main_v16 : IVec S8x256 1 := cmpf .olt main_v14 main_v15
  fn_part1 (F := F) main_arg4 main_v13 main_v16
-- ==== Kernel.lean ====
abbrev S8192x128 : Shape := ⟨2, ![8192, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S_ : Shape := ⟨0, ![]⟩
abbrev S256x1 : Shape := ⟨2, ![256, 1]⟩
abbrev S1x256 : Shape := ⟨2, ![1, 256]⟩
abbrev S8x1 : Shape := ⟨2, ![8, 1]⟩
abbrev S8x8192 : Shape := ⟨2, ![8, 8192]⟩
abbrev S2048x128 : Shape := ⟨2, ![2048, 128]⟩
abbrev S8x2048 : Shape := ⟨2, ![8, 2048]⟩
abbrev S2048 : Shape := ⟨1, ![2048]⟩
abbrev S2048x1 : Shape := ⟨2, ![2048, 1]⟩
abbrev S2048x256 : Shape := ⟨2, ![2048, 256]⟩
abbrev S8192x8 : Shape := ⟨2, ![8192, 8]⟩

abbrev nBuf : Space → Nat
  | .hbm => 15
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S256x128, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S1x256, .f32⟩
  | .hbm, ⟨10, _⟩ => ⟨S256, .f32⟩
  | .hbm, ⟨11, _⟩ => ⟨S1x256, .f32⟩
  | .hbm, ⟨12, _⟩ => ⟨S8x1, .f32⟩
  | .hbm, ⟨13, _⟩ => ⟨S8x8192, .f32⟩
  | .hbm, ⟨14, _⟩ => ⟨S8192x8, .f32⟩
  | .local _ .vmem, ⟨0, _⟩ => ⟨S2048x128, .f32⟩
  | .local _ .vmem, ⟨1, _⟩ => ⟨S2048x128, .f32⟩
  | .local _ .vmem, ⟨2, _⟩ => ⟨S256x128, .f32⟩
  | .local _ .vmem, ⟨3, _⟩ => ⟨S1x256, .f32⟩
  | .local _ .vmem, ⟨4, _⟩ => ⟨S1x256, .f32⟩
  | .local _ .vmem, ⟨5, _⟩ => ⟨S8x256, .f32⟩
  | .local _ .vmem, ⟨6, _⟩ => ⟨S8x1, .f32⟩
  | .local _ .vmem, ⟨7, _⟩ => ⟨S8x2048, .f32⟩
  | .local _ .vmem, ⟨8, _⟩ => ⟨S8x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S256x128_S256_d1 : S256x128.ReducesTo [1] S256
  h_S_ : 0 < S_.numel
  bcast_S256_S256x1_0 : S256.BroadcastsInDim S256x1 (![0] : Fin 1 → Fin S256x1.rank)
  shapeCasts_S256x1_S1x256 : S256x1.ShapeCasts S1x256
  shapeCasts_S256_S1x256 : S256.ShapeCasts S1x256
  shapeCasts_S8_S8x1 : S8.ShapeCasts S8x1
  inb_S2048x128_S2048x128_0_0 : ∀ a, (![0, 0] : Fin 2 → Nat) a + S2048x128.size a ≤ S2048x128.size a
  h_S2048x128 : 0 < S2048x128.numel
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S8x256_S8x256_0_0 : ∀ a, (![0, 0] : Fin 2 → Nat) a + S8x256.size a ≤ S8x256.size a
  h_S8x256 : 0 < S8x256.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  reduces_S2048x128_S2048 : S2048x128.Reduces [1] S2048
  shapeCasts_S2048_S2048x1 : S2048.ShapeCasts S2048x1
  bitsLt_bf16_f32 : FTy.bits .bf16 < FTy.bits .f32
  broadcasts_S2048x1_S2048x256 : S2048x1.Broadcasts S2048x256
  broadcasts_S1x256_S2048x256 : S1x256.Broadcasts S2048x256
  broadcasts_S8x1_S8x2048 : S8x1.Broadcasts S8x2048
  inb_S8x2048_S8x2048_0_0 : ∀ a, (![0, 0] : Fin 2 → Nat) a + S8x2048.size a ≤ S8x2048.size a
  h_S8x2048 : 0 < S8x2048.numel
  transposes_S8x8192_S8192x8_1_0 : S8x8192.Transposes [1, 0] S8192x8
  dot_S2048x128_S256x128_S2048x256_1_1_0_0_n_n_wf : DotDims.WF S2048x128 S256x128 S2048x256 [1] [1] [0] [0] [] []
  dot_S8x256_S2048x256_S8x2048_1_1_0_0_n_n_wf : DotDims.WF S8x256 S2048x256 S8x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x256.size a
  hwx0_4 : ∀ i : grid0.Coords, EltTy.bits .f32 = 32 ∨ (Rect.block (s := S8x256) S8x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S8x1.size a
  hwx0_5 : ∀ i : grid0.Coords, EltTy.bits .f32 = 32 ∨ (Rect.block (s := S8x1) S8x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x2048.size a ≤ S8x8192.size a
  hwx0_6 : ∀ i : grid0.Coords, EltTy.bits .f32 = 32 ∨ (Rect.block (s := S8x8192) S8x2048.size (cc0_transform_6 i) (hinb0_6 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S8x256_S2048x256_S8x2048_1_1_0_0_n_n : DotDims S8x256 S2048x256 S8x2048 where
  lhsContracting := [1]
  rhsContracting := [1]
  lhsNonContracting := [0]
  rhsNonContracting := [0]
  lhsBatch := []
  rhsBatch := []
  wf := dot_S8x256_S2048x256_S8x2048_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S8x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S256x128 : Shape := ⟨2, ![256, 128]⟩
abbrev S256 : Shape := ⟨1, ![256]⟩
abbrev S8x256 : Shape := ⟨2, ![8, 256]⟩
abbrev S8 : Shape := ⟨1, ![8]⟩
abbrev S_ : Shape := ⟨0, ![]⟩
abbrev S8192 : Shape := ⟨1, ![8192]⟩
abbrev S8192x1 : Shape := ⟨2, ![8192, 1]⟩
abbrev S128x256 : Shape := ⟨2, ![128, 256]⟩
abbrev S8192x256 : Shape := ⟨2, ![8192, 256]⟩
abbrev S1x256 : Shape := ⟨2, ![1, 256]⟩
abbrev S256x8 : Shape := ⟨2, ![256, 8]⟩
abbrev S8192x8 : Shape := ⟨2, ![8192, 8]⟩
abbrev S1x8 : Shape := ⟨2, ![1, 8]⟩

abbrev nBuf : Space → Nat
  | .hbm => 36
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S256x128, .f32⟩
  | .hbm, ⟨2, _⟩ => ⟨S256, .f32⟩
  | .hbm, ⟨3, _⟩ => ⟨S8x256, .f32⟩
  | .hbm, ⟨4, _⟩ => ⟨S8, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S256x128, .f32⟩
  | .hbm, ⟨10, _⟩ => ⟨S_, .f32⟩
  | .hbm, ⟨11, _⟩ => ⟨S256, .f32⟩
  | .hbm, ⟨12, _⟩ => ⟨S128x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S_, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S256, .f32⟩
  | .hbm, ⟨27, _⟩ => ⟨S1x256, .f32⟩
  | .hbm, ⟨28, _⟩ => ⟨S8192x256, .f32⟩
  | .hbm, ⟨29, _⟩ => ⟨S8192x256, .f32⟩
  | .hbm, ⟨30, _⟩ => ⟨S8192x256, .f32⟩
  | .hbm, ⟨31, _⟩ => ⟨S256x8, .f32⟩
  | .hbm, ⟨32, _⟩ => ⟨S8192x8, .f32⟩
  | .hbm, ⟨33, _⟩ => ⟨S1x8, .f32⟩
  | .hbm, ⟨34, _⟩ => ⟨S8192x8, .f32⟩
  | .hbm, ⟨35, _⟩ => ⟨S8192x8, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S256x128_S256_d1 : S256x128.ReducesTo [1] S256
  transposes_S256x128_S128x256_1_0 : S256x128.Transposes [1, 0] S128x256
  bcast_S_S8192x256 : S_.BroadcastsInDim S8192x256 (![] : Fin 0 → Fin S8192x256.rank)
  bcast_S8192x1_S8192x256_0_1 : S8192x1.BroadcastsInDim S8192x256 (![0, 1] : Fin 2 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8x256_S256x8_1_0 : S8x256.Transposes [1, 0] S256x8
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  dot_S8192x128_S128x256_S8192x256_1_0_0_1_n_n_wf : DotDims.WF S8192x128 S128x256 S8192x256 [1] [0] [0] [1] [] []
  dot_S8192x256_S256x8_S8192x8_1_0_0_1_n_n_wf : DotDims.WF S8192x256 S256x8 S8192x8 [1] [0] [0] [1] [] []

variable [Facts₀]

def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x8_S8192x8_1_0_0_1_n_n : DotDims S8192x256 S256x8 S8192x8 where
  lhsContracting := [1]
  rhsContracting := [0]
  lhsNonContracting := [0]
  rhsNonContracting := [1]
  lhsBatch := []
  rhsBatch := []
  wf := dot_S8192x256_S256x8_S8192x8_1_0_0_1_n_n_wf

class Facts : Prop extends Facts₀ where

variable [Facts]
-- ==== Proof.KernelProducts.lean ====
/-
  The kernel's two matrix products read at an entry, at the ideal values.

  Both products contract the SECOND axis of both operands: for A of shape [a, k] and B of shape [b, k] the product has
  shape [a, b], and its entry (p, q), accumulated into zero, is the sum over j of A(p, j) · B(q, j) — row p of A against
  row q of B. The first product takes the rows of a block of inputs against the centres; the second takes the head's
  weight rows against the rows of basis responses, which is why its result comes out with the inputs along the columns.
-/
import proofs.«177459_j73349451481363_2_alg».proof.Proof.Gen.KernelIdeal
import Idealize.ShloMosaic.Lib.ValueIdx
import Idealize.ShloMosaic.PureOps.Ideal.Laws

noncomputable section

open scoped BigOperators

namespace Cert.KernelIdeal.Products

open Cert.KernelIdeal Cert.KernelIdeal.Gen Idealize.ShloMosaic Idealize.ShloMosaic.ValueIdx

/-! ## The operands' indices at an entry and a contracted coordinate -/

theorem cross_lhs_0 (i : S2048x256.Idx) (q : dot_S2048x128_S256x128_S2048x256_1_1_0_0_n_n.contr.Idx) :
    (dot_S2048x128_S256x128_S2048x256_1_1_0_0_n_n.lhsIdx i q 0).val = (i 0).val := by
  unfold DotDims.lhsIdx
  rw [dif_neg (show ¬(0 : Fin S2048x128.rank) ∈ dot_S2048x128_S256x128_S2048x256_1_1_0_0_n_n.lhsBatch by decide), dif_pos (show (0 : Fin S2048x128.rank) ∈ dot_S2048x128_S256x128_S2048x256_1_1_0_0_n_n.lhsNonContracting by decide)]
  rfl
theorem cross_lhs_1 (i : S2048x256.Idx) (q : dot_S2048x128_S256x128_S2048x256_1_1_0_0_n_n.contr.Idx) :
    (dot_S2048x128_S256x128_S2048x256_1_1_0_0_n_n.lhsIdx i q 1).val = (q ⟨0, by decide⟩).val :=
  dot_S2048x128_S256x128_S2048x256_1_1_0_0_n_n.lhsIdx_val_of_single rfl i q
theorem cross_rhs_0 (i : S2048x256.Idx) (q : dot_S2048x128_S256x128_S2048x256_1_1_0_0_n_n.contr.Idx) :
    (dot_S2048x128_S256x128_S2048x256_1_1_0_0_n_n.rhsIdx i q 0).val = (i 1).val := by
  unfold DotDims.rhsIdx
  rw [dif_neg (show ¬(0 : Fin S256x128.rank) ∈ dot_S2048x128_S256x128_S2048x256_1_1_0_0_n_n.rhsBatch by decide), dif_pos (show (0 : Fin S256x128.rank) ∈ dot_S2048x128_S256x128_S2048x256_1_1_0_0_n_n.rhsNonContracting by decide)]
  rfl
theorem cross_rhs_1 (i : S2048x256.Idx) (q : dot_S2048x128_S256x128_S2048x256_1_1_0_0_n_n.contr.Idx) :
    (dot_S2048x128_S256x128_S2048x256_1_1_0_0_n_n.rhsIdx i q 1).val = (q ⟨0, by decide⟩).val :=
  dot_S2048x128_S256x128_S2048x256_1_1_0_0_n_n.rhsIdx_val_of_single rfl i q

theorem head_lhs_0 (i : S8x2048.Idx) (q : dot_S8x256_S2048x256_S8x2048_1_1_0_0_n_n.contr.Idx) :
    (dot_S8x256_S2048x256_S8x2048_1_1_0_0_n_n.lhsIdx i q 0).val = (i 0).val := by
  unfold DotDims.lhsIdx
  rw [dif_neg (show ¬(0 : Fin S8x256.rank) ∈ dot_S8x256_S2048x256_S8x2048_1_1_0_0_n_n.lhsBatch by decide), dif_pos (show (0 : Fin S8x256.rank) ∈ dot_S8x256_S2048x256_S8x2048_1_1_0_0_n_n.lhsNonContracting by decide)]
  rfl
theorem head_lhs_1 (i : S8x2048.Idx) (q : dot_S8x256_S2048x256_S8x2048_1_1_0_0_n_n.contr.Idx) :
    (dot_S8x256_S2048x256_S8x2048_1_1_0_0_n_n.lhsIdx i q 1).val = (q ⟨0, by decide⟩).val :=
  dot_S8x256_S2048x256_S8x2048_1_1_0_0_n_n.lhsIdx_val_of_single rfl i q
theorem head_rhs_0 (i : S8x2048.Idx) (q : dot_S8x256_S2048x256_S8x2048_1_1_0_0_n_n.contr.Idx) :
    (dot_S8x256_S2048x256_S8x2048_1_1_0_0_n_n.rhsIdx i q 0).val = (i 1).val := by
  unfold DotDims.rhsIdx
  rw [dif_neg (show ¬(0 : Fin S2048x256.rank) ∈ dot_S8x256_S2048x256_S8x2048_1_1_0_0_n_n.rhsBatch by decide), dif_pos (show (0 : Fin S2048x256.rank) ∈ dot_S8x256_S2048x256_S8x2048_1_1_0_0_n_n.rhsNonContracting by decide)]
  rfl
theorem head_rhs_1 (i : S8x2048.Idx) (q : dot_S8x256_S2048x256_S8x2048_1_1_0_0_n_n.contr.Idx) :
    (dot_S8x256_S2048x256_S8x2048_1_1_0_0_n_n.rhsIdx i q 1).val = (q ⟨0, by decide⟩).val :=
  dot_S8x256_S2048x256_S8x2048_1_1_0_0_n_n.rhsIdx_val_of_single rfl i q

/-! ## The products -/

/-- Rows of the input block against the centres: entry (r, q) is the inner product of row r with centre q. -/
theorem cross_apply {φ₁ φ₂ : FTy} (A : FVec Ideal S2048x128 φ₁) (B : FVec Ideal S256x128 φ₂) (r : Fin 2048) (q : Fin 256) :
    matmul dot_S2048x128_S256x128_S2048x256_1_1_0_0_n_n none A B (constant (F := Ideal) S2048x256 .f32 0x00000000#32) (ix2 r q)
      = ∑ j : Fin 128, A (ix2 r j) * B (ix2 q j) := by
  show FloatOps.matmul _ none A B _ (ix2 r q) = _
  rw [Ideal.matmul_constant_zero_apply, ← Equiv.sum_comp (contrEquiv1 dot_S2048x128_S256x128_S2048x256_1_1_0_0_n_n 128 rfl rfl).symm]
  refine Finset.sum_congr rfl fun j _ => ?_
  have hj := contrEquiv1_symm_val dot_S2048x128_S256x128_S2048x256_1_1_0_0_n_n 128 rfl rfl j
  have el : dot_S2048x128_S256x128_S2048x256_1_1_0_0_n_n.lhsIdx (ix2 r q) ((contrEquiv1 dot_S2048x128_S256x128_S2048x256_1_1_0_0_n_n 128 rfl rfl).symm j) = ix2 r j := funext fun a => Fin.ext (by
    match a with
    | ⟨0, _⟩ => exact cross_lhs_0 _ _
    | ⟨1, _⟩ => exact (cross_lhs_1 _ _).trans hj)
  have er : dot_S2048x128_S256x128_S2048x256_1_1_0_0_n_n.rhsIdx (ix2 r q) ((contrEquiv1 dot_S2048x128_S256x128_S2048x256_1_1_0_0_n_n 128 rfl rfl).symm j) = ix2 q j := funext fun a => Fin.ext (by
    match a with
    | ⟨0, _⟩ => exact cross_rhs_0 _ _
    | ⟨1, _⟩ => exact (cross_rhs_1 _ _).trans hj)
  rw [el, er]

/-- The head's weight rows against the rows of responses: entry (o, r) is the sum over q of W(o, q) · Φ(r, q). -/
theorem head_apply {φ₁ φ₂ : FTy} (W : FVec Ideal S8x256 φ₁) (Φ : FVec Ideal S2048x256 φ₂) (o : Fin 8) (r : Fin 2048) :
    matmul dot_S8x256_S2048x256_S8x2048_1_1_0_0_n_n none W Φ (constant (F := Ideal) S8x2048 .f32 0x00000000#32) (ix2 o r)
      = ∑ q : Fin 256, W (ix2 o q) * Φ (ix2 r q) := by
  show FloatOps.matmul _ none W Φ _ (ix2 o r) = _
  rw [Ideal.matmul_constant_zero_apply, ← Equiv.sum_comp (contrEquiv1 dot_S8x256_S2048x256_S8x2048_1_1_0_0_n_n 256 rfl rfl).symm]
  refine Finset.sum_congr rfl fun q _ => ?_
  have hq := contrEquiv1_symm_val dot_S8x256_S2048x256_S8x2048_1_1_0_0_n_n 256 rfl rfl q
  have el : dot_S8x256_S2048x256_S8x2048_1_1_0_0_n_n.lhsIdx (ix2 o r) ((contrEquiv1 dot_S8x256_S2048x256_S8x2048_1_1_0_0_n_n 256 rfl rfl).symm q) = ix2 o q := funext fun a => Fin.ext (by
    match a with
    | ⟨0, _⟩ => exact head_lhs_0 _ _
    | ⟨1, _⟩ => exact (head_lhs_1 _ _).trans hq)
  have er : dot_S8x256_S2048x256_S8x2048_1_1_0_0_n_n.rhsIdx (ix2 o r) ((contrEquiv1 dot_S8x256_S2048x256_S8x2048_1_1_0_0_n_n 256 rfl rfl).symm q) = ix2 r q := funext fun a => Fin.ext (by
    match a with
    | ⟨0, _⟩ => exact head_rhs_0 _ _
    | ⟨1, _⟩ => exact (head_rhs_1 _ _).trans hq)
  rw [el, er]

end Cert.KernelIdeal.Products

end
-- ==== Proof.RbfSpec.lean ====
/-
  A radial-basis layer as ONE function of its five arrays, entry by entry, on the extended reals.

  For inputs x [n, d], centres c [k, d], widths s [k], head weights w [m, k] and bias b [m] the layer's entry (r, o) is

      sum over q of  w(o, q) · exp( -max(|x_r|² - 2·<x_r, c_q> + |c_q|², 0) · s(q)² )   +  b(o),

  where |x_r|² is the sum of the squares of row r, <x_r, c_q> the inner product of row r of x with row q of c, and the
  squared distance is taken in its expanded form and clipped below at zero. Every operation is the extended reals' own
  (a sum over a finite index type, their product, difference, maximum and exponential), so no rounding and no order of
  summation is left in it. The literal 2 is kept as the word that denotes it.

  `layerFrom` is the same entry with the centres' squared norms, the squared widths and the bias handed in as a row
  [1, k], a row [1, k] and a column [m, 1]: the form in which a kernel that precomputes them receives them.
-/
import Idealize.ShloMosaic.PureOps.Ideal
import Idealize.ShloMosaic.Lib.ValueIdx

noncomputable section

open scoped BigOperators

namespace Cert.Rbf

open Idealize.ShloMosaic Idealize.ShloMosaic.ValueIdx

variable {n k d m : ℕ}

/-- The sum of the squares of row `r`. -/
def rowSq (x : (⟨2, ![n, d]⟩ : Shape).Idx → EReal) (r : Fin n) : EReal :=
  ∑ j : Fin d, x (ix2 r j) * x (ix2 r j)

/-- The inner product of row `r` of `x` with row `q` of `c`. -/
def rowDot (x : (⟨2, ![n, d]⟩ : Shape).Idx → EReal) (c : (⟨2, ![k, d]⟩ : Shape).Idx → EReal) (r : Fin n) (q : Fin k) : EReal :=
  ∑ j : Fin d, x (ix2 r j) * c (ix2 q j)

/-- One basis response from the two squared norms `x2`, `c2`, the inner product `xc` and the squared width `s2`:
    `exp (-max (x2 - 2·xc + c2, 0) · s2)`. -/
def response (x2 xc c2 s2 : EReal) : EReal :=
  Ideal.exp (-(max (x2 - Ideal.ofBits .f32 0x40000000#32 * xc + c2) 0) * s2)

/-- The layer's entry `(r, o)` from the centres' squared norms `c2`, the squared widths `s2` (rows) and the bias column `b`. -/
def layerFrom (x : (⟨2, ![n, d]⟩ : Shape).Idx → EReal) (c : (⟨2, ![k, d]⟩ : Shape).Idx → EReal)
    (c2 s2 : (⟨2, ![1, k]⟩ : Shape).Idx → EReal) (w : (⟨2, ![m, k]⟩ : Shape).Idx → EReal)
    (b : (⟨2, ![m, 1]⟩ : Shape).Idx → EReal) (r : Fin n) (o : Fin m) : EReal :=
  (∑ q : Fin k, w (ix2 o q) * response (rowSq x r) (rowDot x c r q) (c2 (ix2 (0 : Fin 1) q)) (s2 (ix2 (0 : Fin 1) q)))
    + b (ix2 o (0 : Fin 1))

/-- The layer's entry `(r, o)` from the five arrays. -/
def layer (x : (⟨2, ![n, d]⟩ : Shape).Idx → EReal) (c : (⟨2, ![k, d]⟩ : Shape).Idx → EReal)
    (s : (⟨1, ![k]⟩ : Shape).Idx → EReal) (w : (⟨2, ![m, k]⟩ : Shape).Idx → EReal)
    (b : (⟨1, ![m]⟩ : Shape).Idx → EReal) (r : Fin n) (o : Fin m) : EReal :=
  (∑ q : Fin k, w (ix2 o q) * response (rowSq x r) (rowDot x c r q) (rowSq c q) (s (ix1 q) * s (ix1 q)))
    + b (ix1 o)

/-- An entry of the layer depends on `x` through ONE row only: if the `n'` rows of `xb` are rows of `x` (row `r'` of
    `xb` is row `r` of `x`) and the precomputed row, row and column are the centres' squared norms, the squared widths
    and the bias, the entry `(r', o)` from `xb` is the layer's entry `(r, o)`. -/
theorem layerFrom_eq_layer {n' : ℕ} (x : (⟨2, ![n, d]⟩ : Shape).Idx → EReal) (xb : (⟨2, ![n', d]⟩ : Shape).Idx → EReal)
    (c : (⟨2, ![k, d]⟩ : Shape).Idx → EReal) (c2 s2 : (⟨2, ![1, k]⟩ : Shape).Idx → EReal)
    (s : (⟨1, ![k]⟩ : Shape).Idx → EReal) (w : (⟨2, ![m, k]⟩ : Shape).Idx → EReal)
    (b2 : (⟨2, ![m, 1]⟩ : Shape).Idx → EReal) (b : (⟨1, ![m]⟩ : Shape).Idx → EReal) (r' : Fin n') (r : Fin n) (o : Fin m)
    (hx : ∀ j : Fin d, xb (ix2 r' j) = x (ix2 r j))
    (hc2 : ∀ q : Fin k, c2 (ix2 (0 : Fin 1) q) = rowSq c q)
    (hs2 : ∀ q : Fin k, s2 (ix2 (0 : Fin 1) q) = s (ix1 q) * s (ix1 q))
    (hb : b2 (ix2 o (0 : Fin 1)) = b (ix1 o)) :
    layerFrom xb c c2 s2 w b2 r' o = layer x c s w b r o := by
  have e2 : rowSq xb r' = rowSq x r := Finset.sum_congr rfl fun j _ => by rw [hx j]
  have ec : ∀ q : Fin k, rowDot xb c r' q = rowDot x c r q := fun q => Finset.sum_congr rfl fun j _ => by rw [hx j]
  unfold layerFrom layer
  rw [hb]
  exact congrArg (· + b (ix1 o)) (Finset.sum_congr rfl fun q _ => by rw [e2, ec q, hc2 q, hs2 q])

end Cert.Rbf

end
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.GcnValue

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GcnValue

end
-- ==== Proof.LibRowOps.lean ====
/-
  Columns and row sums of a matrix read at an entry, in the kernel's spelling and in the host's, at the ideal values.

  A kernel normalising the rows of a block takes each row's sum with a lane reduction, keeps it as a column
  [a, 1] and repeats the column along the row; the host reduces along axis 1 into a vector [a], broadcasts it to the
  column and the column to the matrix. Read at an entry (p, q) all of these are the row p's value: the sum over k of
  the entries (p, k), or the column's entry of row p.
-/
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

section Columns
variable {α : Type} {a b : Nat}

/-- The host's column of a vector: [a] broadcast to [a, 1] reads at (p, u) the vector at p. -/
theorem col_host_apply (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) :=
  broadcastInDim_apply (![0] : Fin 1 → Fin 2) h x (ix2 p u) (ix1 p) (fun ax => by
    match ax with
    | ⟨0, _⟩ =>
      show p.val = if a = 1 then 0 else p.val
      split
      · have := p.isLt; omega
      · rfl)

/-- The host's repetition of a column along the rows: [a, 1] broadcast to [a, b] reads at (p, q) the column at p. -/
theorem cols_host_apply (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply (![0, 1] : Fin 2 → Fin 2) h v (ix2 p q) (ix2 p (0 : Fin 1)) (fun ax => by
    match ax with
    | ⟨0, _⟩ =>
      show p.val = if a = 1 then 0 else p.val
      split
      · have := p.isLt; omega
      · rfl
    | ⟨1, _⟩ => rfl)

/-- A scalar broadcast to any shape reads the scalar everywhere. -/
theorem scalar_host_apply {s : Shape} (x : (⟨0, ![]⟩ : Shape).Idx → α)
    (h : (⟨0, ![]⟩ : Shape).BroadcastsInDim s (![] : Fin 0 → Fin s.rank)) (i : s.Idx) :
    broadcastInDim s (![] : Fin 0 → Fin s.rank) h x i = x ix0 :=
  broadcastInDim_apply (![] : Fin 0 → Fin s.rank) h x i ix0 (fun ax => ax.elim0)

end Columns

section Sums
variable {a b : Nat}

/-- The reduced index p with the coordinate k of axis 1 put back is (p, k). -/
theorem lift_axis1 (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's lane sum of a block's rows, from the zero word, read at row p: the sum of the row. -/
theorem rowSum_kernel_apply (X : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => by rw [lift_axis1 h p k]; rfl

/-- The host's sum along axis 1 from the zero word, read at row p: the sum of the row. -/
theorem rowSum_host_apply (X : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd X (constant (F := Ideal) (⟨0, ![]⟩ : Shape) .f32 0x00000000#32) h' hu (ix1 p) = ∑ k : Fin b, X (ix2 p k) := by
  show Ideal.hostReduceAdd h' X _ (ix1 p) = _
  rw [Ideal.hostReduceAdd_single h' h]
  show Ideal.ofBits .f32 0x00000000#32 + _ = _
  rw [Ideal.ofBits_zero_f32, zero_add]
  exact Finset.sum_congr rfl fun k _ => by rw [lift_axis1 h p k]; rfl

end Sums

end Cert.LibRowOps

end
-- ==== Proof.KernelEntry.lean ====
/-
  One entry of what the kernel body stores, as the layer's entry from the body's six loaded blocks.

  The body holds a block of 2048 input rows, all 256 centres, the row of the centres' squared norms, the row of squared
  widths, the head's 8 weight rows and the bias column. It forms each row's squared norm by a lane sum, the inner
  products with the centres by a matrix product (the operands narrowed first, which changes nothing at the ideal
  values), the clipped expanded squared distance, the responses `exp ((0 - dist) · width²)`, and the head's product
  with the bias column added. Read at the entry (o, r) of the [8, 2048] result this is the layer's entry for input row r
  and output o: every pointwise operation reads through at the entry, the lane sum and the two products become sums
  over a coordinate, the column and row broadcasts read the column's and the row's one entry, and `0 - v` is `-v`.
-/
import proofs.«177459_j73349451481363_2_alg».proof.Proof.Gen.KernelIdeal.Skeleton
import proofs.«177459_j73349451481363_2_alg».proof.Proof.KernelProducts
import proofs.«177459_j73349451481363_2_alg».proof.Proof.RbfSpec
import proofs.«177459_j73349451481363_2_alg».proof.Proof.LibColumns
import proofs.«177459_j73349451481363_2_alg».proof.Proof.LibRowOps
import Idealize.ShloMosaic.Lib.Pipeline.Value
import Idealize.ShloMosaic.Lib.ValueLayout

noncomputable section

open scoped BigOperators

namespace Cert.KernelIdeal.Entry

open Cert.KernelIdeal Cert.KernelIdeal.Gen Idealize.ShloMosaic Idealize.ShloMosaic.ValueIdx

/-- The response the body computes for input row `r` and centre `q`, from the blocks. -/
theorem response_apply (x0 : Vec Ideal S2048x128 .f32) (x1 : Vec Ideal S256x128 .f32) (x2 x3 : Vec Ideal S1x256 .f32)
    (hφ : FKind.Formats .f32) (hacc : (0x00000000#32 : BitVec 32) = FKind.add.neutral .f32 hφ) (r : Fin 2048) (q : Fin 256) :
    exp (mulf
        (subf (broadcast S2048x256 (FloatOps.ofBits (F := Ideal) .f32 0x00000000#32))
          (maximumf
            (addf
              (subf
                (broadcastTo S2048x256
                  (shapeCast S2048x1 (multiReduction .add [1] S2048 (mulf x0 x0) 0x00000000#32 reduces_S2048x128_S2048 hφ hacc)
                    shapeCasts_S2048_S2048x1)
                  broadcasts_S2048x1_S2048x256)
                (mulf (broadcast S2048x256 (FloatOps.ofBits (F := Ideal) .f32 0x40000000#32))
                  (matmul dot_S2048x128_S256x128_S2048x256_1_1_0_0_n_n none (truncf .bf16 x0 bitsLt_bf16_f32)
                    (truncf .bf16 x1 bitsLt_bf16_f32) (constant (F := Ideal) S2048x256 .f32 0x00000000#32))))
              (broadcastTo S2048x256 x2 broadcasts_S1x256_S2048x256))
            (broadcast S2048x256 (FloatOps.ofBits (F := Ideal) .f32 0x00000000#32))))
        (broadcastTo S2048x256 x3 broadcasts_S1x256_S2048x256)) (ix2 r q)
      = Cert.Rbf.response (Cert.Rbf.rowSq x0 r) (Cert.Rbf.rowDot x0 x1 r q) (x2 (ix2 (0 : Fin 1) q)) (x3 (ix2 (0 : Fin 1) q)) := by
  have exp_at : ∀ (v : FVec Ideal S2048x256 .f32) (i : S2048x256.Idx), exp v i = Ideal.exp (v i) := fun _ _ => rfl
  rw [exp_at, mulf_apply, subf_apply, maximumf_apply, addf_apply, subf_apply, mulf_apply]
  simp only [broadcast_apply]
  rw [broadcastTo_1b_ab_apply, broadcastTo_1b_ab_apply, Cert.GcnValue.broadcastTo_a1_ab_apply,
    Cert.GcnValue.shapeCast_a_a1_apply, Cert.LibRowOps.rowSum_kernel_apply, Products.cross_apply]
  simp only [mulf_apply, truncf_apply]
  unfold Cert.Rbf.response Cert.Rbf.rowSq Cert.Rbf.rowDot
  rw [Ideal.ofBits_def, Ideal.ofBits_def, Ideal.ofBits_zero_f32, zero_sub]

/-- THE BODY'S STORED VALUE AT AN ENTRY: the layer's entry from the loaded blocks. -/
theorem pay_apply (x0 : Vec Ideal S2048x128 .f32) (x1 : Vec Ideal S256x128 .f32) (x2 x3 : Vec Ideal S1x256 .f32)
    (x4 : Vec Ideal S8x256 .f32) (x5 : Vec Ideal S8x1 .f32) (o : Fin 8) (r : Fin 2048) :
    k0_pay1 (F := Ideal) x0 x1 x2 x3 x4 x5 (ix2 o r) = Cert.Rbf.layerFrom x0 x1 x2 x3 x4 x5 r o := by
  unfold k0_pay1
  simp only [shapeCast_self]
  rw [addf_apply, Products.head_apply, Cert.GcnValue.broadcastTo_a1_ab_apply]
  unfold Cert.Rbf.layerFrom
  exact congrArg (· + x5 (ix2 o (0 : Fin 1))) (Finset.sum_congr rfl fun q _ =>
    congrArg (x4 (ix2 o q) * ·) (response_apply x0 x1 x2 x3 _ _ r q))

end Cert.KernelIdeal.Entry

end
-- ==== Proof.LibRowCol.lean ====
/-
  A column turned into a row.

  An [a, 1] array recast as [1, a] keeps its entries in order: the row's entry i is the column's entry i.
-/
import Idealize.ShloMosaic.Lib.Pipeline.Value
import Idealize.ShloMosaic.Lib.ValueIdx

noncomputable section

namespace Cert.LibRowCol

open Idealize.ShloMosaic Idealize.ShloMosaic.ValueIdx

variable {α : Type}

/-- An `[a, 1]` column cast to the row `[1, a]` reads, at `(u, i)`, the column at `(i, 0)`, whatever the unit coordinate `u`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

end Cert.LibRowCol

end
-- ==== Proof.KernelHost.lean ====
/-
  What the region finds in the three arrays the host prepares before it.

  Before the kernel runs the host computes, from the centres, the row [1, 256] of their squared norms (the sum along each
  centre of its squared coordinates, kept as a column and recast as a row); from the widths, the row [1, 256] of their
  squares; and from the bias, the same numbers as a column [8, 1]. Read at an entry: the first row's entry q is the sum
  over j of centre(q, j)², the second's is width(q)², and the column's entry o is bias(o). The host's sum starts from the
  zero word, which is the extended real 0.
-/
import proofs.«177459_j73349451481363_2_alg».proof.Proof.Gen.KernelIdeal.Frame
import proofs.«177459_j73349451481363_2_alg».proof.Proof.RbfSpec
import proofs.«177459_j73349451481363_2_alg».proof.Proof.LibColumns
import proofs.«177459_j73349451481363_2_alg».proof.Proof.LibRowOps
import proofs.«177459_j73349451481363_2_alg».proof.Proof.LibRowCol
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.Prepared

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The five arguments as the program is launched with them, at their literal types: inputs, centres, widths, head
    weights, bias. -/
abbrev argX (c : Dev nD) : S8192x128.Idx → EReal := m ((c : Thread nD τ).loc main_arg0)
abbrev argC (c : Dev nD) : S256x128.Idx → EReal := m ((c : Thread nD τ).loc main_arg1)
abbrev argS (c : Dev nD) : S256.Idx → EReal := m ((c : Thread nD τ).loc main_arg2)
abbrev argW (c : Dev nD) : S8x256.Idx → EReal := m ((c : Thread nD τ).loc main_arg3)
abbrev argB (c : Dev nD) : S8.Idx → EReal := m ((c : Thread nD τ).loc main_arg4)

/-- The row of the centres' squared norms, as the host's operations compose it. -/
theorem sqnorms_eq (c : Dev nD) : (V m c main_v3 : S1x256.Idx → EReal)
    = shapeCast S1x256 (broadcastInDim S256x1 ![0] bcast_S256_S256x1_0
        (Host.reduceAdd (mulf (F := Ideal) (φ := .f32) (argC m c) (argC m c)) (constant (F := Ideal) S_ .f32 0x00000000#32)
          reducesTo_S256x128_S256_d1 h_S_)) shapeCasts_S256x1_S1x256 := by
  show StableHlo.after hostOps0 (fun b => m (c, b)) (Proc.devRef .tc main_v3) = _
  after_results
  rfl

/-- The row of squared widths. -/
theorem sqwidths_eq (c : Dev nD) : (V m c main_v5 : S1x256.Idx → EReal)
    = shapeCast S1x256 (mulf (F := Ideal) (φ := .f32) (argS m c) (argS m c)) shapeCasts_S256_S1x256 := by
  show StableHlo.after hostOps0 (fun b => m (c, b)) (Proc.devRef .tc main_v5) = _
  after_results
  rfl

/-- The bias as a column. -/
theorem biascol_eq (c : Dev nD) : (V m c main_v6 : S8x1.Idx → EReal)
    = shapeCast S8x1 (argB m c) shapeCasts_S8_S8x1 := by
  show StableHlo.after hostOps0 (fun b => m (c, b)) (Proc.devRef .tc main_v6) = _
  after_results
  rfl

/-- Entry `q` of the first row is the squared norm of centre `q`. -/
theorem sqnorms_apply (c : Dev nD) (q : Fin 256) :
    (V m c main_v3 : S1x256.Idx → EReal) (ix2 (0 : Fin 1) q) = Cert.Rbf.rowSq (argC m c) q := by
  rw [sqnorms_eq, Cert.LibRowCol.shapeCast_a1_1a_apply, Cert.LibRowOps.col_host_apply,
    Cert.LibRowOps.rowSum_host_apply _ _ (by decide)]
  unfold Cert.Rbf.rowSq
  simp only [mulf_apply]

/-- Entry `q` of the second row is the square of width `q`. -/
theorem sqwidths_apply (c : Dev nD) (q : Fin 256) :
    (V m c main_v5 : S1x256.Idx → EReal) (ix2 (0 : Fin 1) q) = (argS m c) (ix1 q) * (argS m c) (ix1 q) := by
  rw [sqwidths_eq, shapeCast_a_1a_apply, mulf_apply]

/-- Entry `o` of the column is bias `o`. -/
theorem biascol_apply (c : Dev nD) (o : Fin 8) :
    (V m c main_v6 : S8x1.Idx → EReal) (ix2 o (0 : Fin 1)) = (argB m c) (ix1 o) := by
  rw [biascol_eq, Cert.GcnValue.shapeCast_a_a1_apply]

end Cert.KernelIdeal.Prepared

end
-- ==== Proof.KernelBlocks.lean ====
/-
  Each operand's block at a grid point, read at an entry.

  The grid has four points. At point t the kernel is handed rows 2048·t … 2048·t + 2047 of the inputs and writes columns
  2048·t … 2048·t + 2047 of the [8, 8192] result; the centres, the two precomputed rows, the head's weights and the bias
  column are each ONE block, the whole array, at every point. So row r of the input block is row 2048·t + r of the
  inputs, the centres' and weights' blocks ARE the centres and the weights, and the precomputed blocks read, at an entry,
  what the host put there: a centre's squared norm, a squared width, a bias.
-/
import proofs.«177459_j73349451481363_2_alg».proof.Proof.Gen.KernelIdeal.Frame
import proofs.«177459_j73349451481363_2_alg».proof.Proof.KernelHost
import proofs.«177459_j73349451481363_2_alg».proof.Proof.RbfSpec
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Prepared Idealize.ShloMosaic Idealize.ShloMosaic.TcCoe Idealize.SL.Sem
open Idealize.ShloMosaic.ValueIdx

variable (m : (ℓ : Loc nD τ sig) → Buf (Elt Ideal) ℓ)

/-- The printed index maps, decided over the grid: the inputs' block index is (t, 0), the result's is (0, t), every
    other operand's is (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = t.val :=
  (by decide +kernel : ∀ t : Fin grid0.N, _)

/-- Row `r` of the input block at point `t` is row `2048·t + r` of the inputs. -/
theorem inputs_block_apply (c : Dev nD) (t : Fin cfg0.N) (r : Fin 2048) (j : Fin 128) (R : Fin 8192)
    (hR : R.val = t.val * 2048 + r.val) :
    (iblk m c 0 t : Vec Ideal S2048x128 .f32) (ix2 r j) = argX m c (ix2 R j) := by
  obtain ⟨e00, e01, -⟩ := idx_facts t
  unfold iblk
  rw [View.read_apply]
  show V m c main_arg0 (((cfg0.win 0).blk t).view.emb (ix2 r j)) = argX m c (ix2 R j)
  rw [V_main_arg0 m c]
  refine congrArg _ (funext fun a => Fin.ext ?_)
  match a with
  | ⟨0, _⟩ => show win0_0.index t (0 : Fin 2) * 2048 + 1 * r.val = R.val; omega
  | ⟨1, _⟩ => show win0_0.index t (1 : Fin 2) * 128 + 1 * j.val = j.val; omega

/-- The centres' block is the centres. -/
theorem centres_block (c : Dev nD) (t : Fin cfg0.N) : (iblk m c 1 t : Vec Ideal S256x128 .f32) = argC m c := by
  obtain ⟨-, -, e10, e11, e20, e21, e30, e31, e40, e41, e50, e51, -, -⟩ := idx_facts t
  funext i
  unfold iblk
  rw [View.read_apply]
  show V m c main_arg1 (((cfg0.win 1).blk t).view.emb i) = argC m c i
  rw [V_main_arg1 m c]
  refine congrArg _ (funext fun a => Fin.ext ?_)
  match a with
  | ⟨0, _⟩ => show win0_1.index t (0 : Fin 2) * 256 + 1 * (i 0).val = (i 0).val; omega
  | ⟨1, _⟩ => show win0_1.index t (1 : Fin 2) * 128 + 1 * (i 1).val = (i 1).val; omega

/-- The head weights' block is the weights. -/
theorem weights_block (c : Dev nD) (t : Fin cfg0.N) : (iblk m c 4 t : Vec Ideal S8x256 .f32) = argW m c := by
  obtain ⟨-, -, e10, e11, e20, e21, e30, e31, e40, e41, e50, e51, -, -⟩ := idx_facts t
  funext i
  unfold iblk
  rw [View.read_apply]
  show V m c main_arg3 (((cfg0.win 4).blk t).view.emb i) = argW m c i
  rw [V_main_arg3 m c]
  refine congrArg _ (funext fun a => Fin.ext ?_)
  match a with
  | ⟨0, _⟩ => show win0_4.index t (0 : Fin 2) * 8 + 1 * (i 0).val = (i 0).val; omega
  | ⟨1, _⟩ => show win0_4.index t (1 : Fin 2) * 256 + 1 * (i 1).val = (i 1).val; omega

/-- Entry `q` of the first precomputed row's block is the squared norm of centre `q`. -/
theorem sqnorms_block_apply (c : Dev nD) (t : Fin cfg0.N) (q : Fin 256) :
    (iblk m c 2 t : Vec Ideal S1x256 .f32) (ix2 (0 : Fin 1) q) = Cert.Rbf.rowSq (argC m c) q := by
  obtain ⟨-, -, e10, e11, e20, e21, e30, e31, e40, e41, e50, e51, -, -⟩ := idx_facts t
  unfold iblk
  rw [View.read_apply]
  show (V m c main_v3 : S1x256.Idx → EReal) (((cfg0.win 2).blk t).view.emb (ix2 (0 : Fin 1) q)) = _
  refine (congrArg (V m c main_v3 : S1x256.Idx → EReal) (?_ : ((cfg0.win 2).blk t).view.emb (ix2 (0 : Fin 1) q) = ix2 (0 : Fin 1) q)).trans (sqnorms_apply m c q)
  funext a
  apply Fin.ext
  match a with
  | ⟨0, _⟩ => show win0_2.index t (0 : Fin 2) * 1 + 1 * 0 = 0; omega
  | ⟨1, _⟩ => show win0_2.index t (1 : Fin 2) * 256 + 1 * q.val = q.val; omega

/-- Entry `q` of the second precomputed row's block is the square of width `q`. -/
theorem sqwidths_block_apply (c : Dev nD) (t : Fin cfg0.N) (q : Fin 256) :
    (iblk m c 3 t : Vec Ideal S1x256 .f32) (ix2 (0 : Fin 1) q) = argS m c (ix1 q) * argS m c (ix1 q) := by
  obtain ⟨-, -, e10, e11, e20, e21, e30, e31, e40, e41, e50, e51, -, -⟩ := idx_facts t
  unfold iblk
  rw [View.read_apply]
  show (V m c main_v5 : S1x256.Idx → EReal) (((cfg0.win 3).blk t).view.emb (ix2 (0 : Fin 1) q)) = _
  refine (congrArg (V m c main_v5 : S1x256.Idx → EReal) (?_ : ((cfg0.win 3).blk t).view.emb (ix2 (0 : Fin 1) q) = ix2 (0 : Fin 1) q)).trans (sqwidths_apply m c q)
  funext a
  apply Fin.ext
  match a with
  | ⟨0, _⟩ => show win0_3.index t (0 : Fin 2) * 1 + 1 * 0 = 0; omega
  | ⟨1, _⟩ => show win0_3.index t (1 : Fin 2) * 256 + 1 * q.val = q.val; omega

/-- Entry `o` of the bias column's block is bias `o`. -/
theorem bias_block_apply (c : Dev nD) (t : Fin cfg0.N) (o : Fin 8) :
    (iblk m c 5 t : Vec Ideal S8x1 .f32) (ix2 o (0 : Fin 1)) = argB m c (ix1 o) := by
  obtain ⟨-, -, e10, e11, e20, e21, e30, e31, e40, e41, e50, e51, -, -⟩ := idx_facts t
  unfold iblk
  rw [View.read_apply]
  show (V m c main_v6 : S8x1.Idx → EReal) (((cfg0.win 5).blk t).view.emb (ix2 o (0 : Fin 1))) = _
  refine (congrArg (V m c main_v6 : S8x1.Idx → EReal) (?_ : ((cfg0.win 5).blk t).view.emb (ix2 o (0 : Fin 1)) = ix2 o (0 : Fin 1))).trans (biascol_apply m c o)
  funext a
  apply Fin.ext
  match a with
  | ⟨0, _⟩ => show win0_5.index t (0 : Fin 2) * 8 + 1 * o.val = o.val; omega
  | ⟨1, _⟩ => show win0_5.index t (1 : Fin 2) * 1 + 1 * 0 = 0; omega

end Cert.KernelIdeal.Blocks

end
-- ==== Proof.KernelArray.lean ====
/-
  The [8, 8192] array the region leaves: the layer, with the outputs along the rows and the inputs along the columns.

  At grid point t the body's one store fills its whole [8, 2048] buffer, and that buffer is written back as columns
  2048·t … 2048·t + 2047. Its entry (o, r) is the layer's entry from the blocks the body loaded; the input block's row r
  is the inputs' row 2048·t + r and every other block is the whole operand (or what the host precomputed from it), so
  the entry is the layer's entry for input row 2048·t + r and output o — exactly the entry of the transposed layer that
  the write-back puts it at. The four blocks cover the array (column j lies in block j / 2048), so after the region
  the array holds the transposed layer everywhere.
-/
import proofs.«177459_j73349451481363_2_alg».proof.Proof.Gen.KernelIdeal.Frame
import proofs.«177459_j73349451481363_2_alg».proof.Proof.KernelEntry
import proofs.«177459_j73349451481363_2_alg».proof.Proof.KernelBlocks
import proofs.«177459_j73349451481363_2_alg».proof.Proof.RbfSpec
import Idealize.ShloMosaic.Lib.Pipeline.Value
import Idealize.ShloMosaic.Lib.ValueIdx

set_option maxRecDepth 16384

noncomputable section

open scoped BigOperators

namespace Cert.KernelIdeal.Transposed

open Cert.KernelIdeal Cert.KernelIdeal.Gen Cert.KernelIdeal.Prepared Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The transposed layer: entry `(o, j)` is the layer's entry for input row `j` and output `o`. -/
abbrev layerT (c : Dev nD) : S8x8192.Idx → EReal := fun i =>
  Cert.Rbf.layer (argX m c) (argC m c) (argS m c) (argW m c) (argB m c) (i 1) (i 0)

theorem origin : (![0, 0] : Fin 2 → Nat) = fun _ => 0 := funext fun a => by fin_cases a <;> rfl

/-- WHAT POINT `t` WRITES BACK is block `t` of the transposed layer. -/
theorem flushed_eq (c : Dev nD) (t : Fin cfg0.N) :
    (dats m 0 c).flushed 6 t = ((cfg0.win 6).blk t).view.read (Elt Ideal) (layerT m c) := by
  show (cfg0.win 6).cut (grid0.coords t) ((dats m 0 c).after 6 t) = _
  rw [after0_6]
  unfold out0_6
  rw [View.canon_unit_zero origin]
  simp only [View.ld_unit_zero (S := S2048x128) origin, View.ld_unit_zero (S := S256x128) origin,
    View.ld_unit_zero (S := S1x256) origin, View.ld_unit_zero (S := S8x256) origin, View.ld_unit_zero (S := S8x1) origin]
  obtain ⟨-, -, -, -, -, -, -, -, -, -, -, -, e60, e61⟩ := Blocks.idx_facts t
  funext j
  obtain ⟨o, r, rfl⟩ : ∃ (o : Fin 8) (r : Fin 2048), j = ix2 o r := ⟨j 0, j 1, eq_ix2 (n0 := 8) (n1 := 2048) j⟩
  have hN : cfg0.N = 4 := N_0
  have hR : t.val * 2048 + r.val < 8192 := by have := t.isLt; have := r.isLt; omega
  have eemb : ((cfg0.win 6).blk t).view.emb (ix2 o r) = ix2 o (⟨t.val * 2048 + r.val, hR⟩ : Fin 8192) :=
    funext fun a => Fin.ext (by
      match a with
      | ⟨0, _⟩ => show win0_6.index t (0 : Fin 2) * 8 + 1 * o.val = o.val; omega
      | ⟨1, _⟩ => show win0_6.index t (1 : Fin 2) * 2048 + 1 * r.val = t.val * 2048 + r.val; omega)
  show k0_pay1 (F := Ideal) (iblk m c 0 t) (iblk m c 1 t) (iblk m c 2 t) (iblk m c 3 t) (iblk m c 4 t) (iblk m c 5 t) (ix2 o r)
      = layerT m c (((cfg0.win 6).blk t).view.emb (ix2 o r))
  rw [eemb]
  refine (Entry.pay_apply (iblk m c 0 t) (iblk m c 1 t) (iblk m c 2 t) (iblk m c 3 t) (iblk m c 4 t) (iblk m c 5 t) o r).trans ?_
  rw [Blocks.centres_block m c t, Blocks.weights_block m c t]
  exact Cert.Rbf.layerFrom_eq_layer (argX m c) (iblk m c 0 t) (argC m c) (iblk m c 2 t) (iblk m c 3 t) (argS m c) (argW m c)
    (iblk m c 5 t) (argB m c) r ⟨t.val * 2048 + r.val, hR⟩ o
    (fun j => Blocks.inputs_block_apply m c t r j ⟨t.val * 2048 + r.val, hR⟩ rfl)
    (Blocks.sqnorms_block_apply m c t) (Blocks.sqwidths_block_apply m c t) (Blocks.bias_block_apply m c t o)

/-- An index of the array is in point `t`'s block iff each coordinate is in the block's range on its axis. -/
theorem mem_blk (t : Fin cfg0.N) (i : S8x8192.Idx) :
    i ∈ ((cfg0.win 6).blk t).view.set ↔ ∀ a : Fin 2, win0_6.index t a * S8x2048.size a ≤ (i a).val ∧ (i a).val < win0_6.index t a * S8x2048.size a + S8x2048.size a := by
  show i ∈ ((View.whole main_v7).slice (win0_6.rect t)).set ↔ _
  rw [View.set_slice_whole, Rect.mem_set_unit]
  exact Iff.rfl

/-- Every entry of the array is in some written-back block: column `j` is in block `j / 2048`. -/
theorem cover (i : S8x8192.Idx) : ∃ t : Fin cfg0.N, (cfg0.win 6).flush t = true ∧ i ∈ ((cfg0.win 6).blk t).view.set := by
  have h0 : (i 0).val < 8 := (i 0).isLt
  have h1 : (i 1).val < 8192 := (i 1).isLt
  have hN : cfg0.N = 4 := N_0
  obtain ⟨t, ht⟩ : ∃ t : Fin cfg0.N, t.val = (i 1).val / 2048 := ⟨⟨(i 1).val / 2048, by rw [hN]; omega⟩, rfl⟩
  obtain ⟨-, -, -, -, -, -, -, -, -, -, -, -, e60, e61⟩ := Blocks.idx_facts t
  refine ⟨t, flush0_6 t, ?_⟩
  rw [mem_blk]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 2048 ≤ (i 1).val ∧ (i 1).val < win0_6.index t (1 : Fin 2) * 2048 + 2048; omega

/-- THE ARRAY after the region is the transposed layer. -/
theorem final (c : Dev nD) : (dats m 0 c).arrAt 6 cfg0.N = layerT m c :=
  (dats m 0 c).arrAt_eq_of_cover 6 (layerT m c) (fun t _ => flushed_eq m c t) cover

end Cert.KernelIdeal.Transposed

end
-- ==== Proof.KernelResult.lean ====
/-
  The kernel program's result: the layer.

  After the region the host transposes the [8, 8192] array into the [8192, 8] result. The array is the transposed layer,
  so the result's entry (r, o) is the layer's entry for input row r and output o. The run itself — every weakly fair
  execution ends, without a fault, the five arguments unchanged — is the generated frame run; here its post is read
  at the result buffer.
-/
import proofs.«177459_j73349451481363_2_alg».proof.Proof.Gen.KernelIdeal.Frame
import proofs.«177459_j73349451481363_2_alg».proof.Proof.KernelArray
import Idealize.ShloMosaic.Lib.StableHlo.Run
import Idealize.ShloMosaic.Lib.ValueLayout

set_option maxRecDepth 16384

noncomputable section

open scoped BigOperators

namespace Cert.KernelIdeal.Result

open Cert.KernelIdeal Cert.KernelIdeal.Gen Cert.KernelIdeal.Prepared Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The layer of the five arguments, as the [8192, 8] result. -/
abbrev layerOf (c : Dev nD) : S8192x8.Idx → EReal := fun i =>
  Cert.Rbf.layer (argX m c) (argC m c) (argS m c) (argW m c) (argB m c) (i 0) (i 1)

/-- What the host's transpose after the region leaves in the result buffer: the layer. -/
theorem tail (c : Dev nD) : Pipeline.afterTail₀ cfgs (dats m) 0 (V0 m) [hostOps1] c main_v8 = layerOf m c := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = Transposed.layerT m c :=
    (Pipeline.withArrays_arr spec0 launch0.win.arr_inj c _ _ 6).trans (Transposed.final m c)
  rw [hw]
  funext i
  obtain ⟨r, o, rfl⟩ : ∃ (r : Fin 8192) (o : Fin 8), i = ix2 r o := ⟨i 0, i 1, eq_ix2 i⟩
  exact transpose_ix2_apply (Transposed.layerT m c) transposes_S8x8192_S8192x8_1_0 r o

/-- THE RUN: every weakly fair execution ends with the result buffer at the layer of the arguments, the arguments unchanged. -/
theorem run : θ_run defs (onTc (τ := τ) (main (F := Ideal))) ⟨m, fun _ => 0, ρ⟩ fun r => ∀ c : Dev nD,
      r.2.mem ((c.tc : Thread nD τ).loc main_v8) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v8 (Pipeline.mem_restRefs_of main_v8 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference's result, entry by entry, is the layer.

  The reference computes the same quantities over the whole arrays: each input row's squared norm and each centre's by a
  sum along the row (from the zero word, which is 0), the inner products by a product with the transposed centres, the
  clipped expanded squared distance, the responses `exp (-dist · width²)`, and the product of the responses with the
  transposed head weights plus the bias. Read one operation at a time at the entry (r, o), every layout operation lands
  on the entry it names, and what remains differs from the layer's entry only in the order of the two factors under the
  last sum, response · weight against weight · response: the product of extended reals commutes.
-/
import proofs.«177459_j73349451481363_2_alg».proof.Proof.Gen.ReferenceIdeal.Read
import proofs.«177459_j73349451481363_2_alg».proof.Proof.RbfSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The response stage at `(r, q)`: the response of input row `r` to centre `q`. -/
theorem response_apply (x0 : S8192x128.Idx → EReal) (x1 : S256x128.Idx → EReal) (x2 : S256.Idx → EReal) (r : Fin 8192) (q : Fin 256) :
    val_main_v21 (F := Ideal) x0 x1 x2 (ix2 r q)
      = Cert.Rbf.response (Cert.Rbf.rowSq x0 r) (Cert.Rbf.rowDot x0 x1 r q) (Cert.Rbf.rowSq x1 q) (x2 (ix1 q) * x2 (ix1 q)) := by
  have iA : ∀ k : Fin 128, idx_main_v1 (idx_main_v2 (idx_main_v9 (ix2 r q))) k = ix2 r k := fun k =>
    funext fun a => Fin.ext (by match a with | ⟨0, _⟩ => rfl | ⟨1, _⟩ => rfl)
  have iB : ∀ k : Fin 128, lidx_main_v6 (ix2 r q) k = ix2 r k := fun k =>
    funext fun a => Fin.ext (by match a with | ⟨0, _⟩ => rfl | ⟨1, _⟩ => rfl)
  have iC : ∀ k : Fin 128, idx_main_v5 (ridx_main_v6 (ix2 r q) k) = ix2 q k := fun k =>
    funext fun a => Fin.ext (by match a with | ⟨0, _⟩ => rfl | ⟨1, _⟩ => rfl)
  have iD : ∀ k : Fin 128, idx_main_v4 (idx_main_v11 (idx_main_v12 (ix2 r q))) k = ix2 q k := fun k =>
    funext fun a => Fin.ext (by match a with | ⟨0, _⟩ => rfl | ⟨1, _⟩ => rfl)
  have iE : idx_main_v18 (idx_main_v19 (ix2 r q)) = ix1 q :=
    funext fun a => Fin.ext (by match a with | ⟨0, _⟩ => rfl)
  rw [val_main_v21_apply, val_main_v20_apply, val_main_v16_apply, val_main_v15_apply, val_main_v13_apply, val_main_v10_apply,
    val_main_v9_apply, val_main_v2_apply, val_main_v1_apply, val_main_v8_apply, val_main_v7_apply, val_main_v6_apply,
    val_main_v12_apply, val_main_v11_apply, val_main_v4_apply, val_main_v14_apply, val_main_v19_apply, val_main_v18_apply,
    val_main_v17_apply, val_main_cst_apply, val_main_cst_0_apply, val_main_cst_1_apply, val_main_cst_2_apply]
  simp only [val_main_v0_apply, val_main_v3_apply, val_main_v5_apply, iA, iB, iC, iD, iE]
  unfold Cert.Rbf.response Cert.Rbf.rowSq Cert.Rbf.rowDot
  simp only [Ideal.hostUnary_exp_def, Ideal.mulf_def, Ideal.hostNegf_def, Ideal.negf_def, Ideal.maximumf_def, Ideal.addf_def,
    Ideal.subf_def, Ideal.ofBits_def, Ideal.ofBits_zero_f32, zero_add]

/-- THE REFERENCE'S RESULT AT AN ENTRY is the layer's entry. -/
theorem result_apply (x0 : S8192x128.Idx → EReal) (x1 : S256x128.Idx → EReal) (x2 : S256.Idx → EReal)
    (x3 : S8x256.Idx → EReal) (x4 : S8.Idx → EReal) (r : Fin 8192) (o : Fin 8) :
    val_main_v26 (F := Ideal) x0 x1 x2 x3 x4 (ix2 r o) = Cert.Rbf.layer x0 x1 x2 x3 x4 r o := by
  have iF : ∀ k : Fin 256, lidx_main_v23 (ix2 r o) k = ix2 r k := fun k =>
    funext fun a => Fin.ext (by match a with | ⟨0, _⟩ => rfl | ⟨1, _⟩ => rfl)
  have iG : ∀ k : Fin 256, idx_main_v22 (ridx_main_v23 (ix2 r o) k) = ix2 o k := fun k =>
    funext fun a => Fin.ext (by match a with | ⟨0, _⟩ => rfl | ⟨1, _⟩ => rfl)
  have iH : idx_main_v24 (idx_main_v25 (ix2 r o)) = ix1 o :=
    funext fun a => Fin.ext (by match a with | ⟨0, _⟩ => rfl)
  rw [val_main_v26_apply, val_main_v23_apply, val_main_v25_apply, val_main_v24_apply, iH]
  simp only [val_main_v22_apply, iF, iG, response_apply]
  unfold Cert.Rbf.layer
  show _ + _ = _
  exact congrArg (· + x4 (ix1 o)) (Finset.sum_congr rfl fun q _ => mul_comm _ _)

/-- So the result stage is the layer, as a function of the entry. -/
theorem result_eq (x0 : S8192x128.Idx → EReal) (x1 : S256x128.Idx → EReal) (x2 : S256.Idx → EReal)
    (x3 : S8x256.Idx → EReal) (x4 : S8.Idx → EReal) :
    val_main_v26 (F := Ideal) x0 x1 x2 x3 x4 = fun i => Cert.Rbf.layer x0 x1 x2 x3 x4 (i 0) (i 1) := by
  funext i
  obtain ⟨r, o, rfl⟩ : ∃ (r : Fin 8192) (o : Fin 8), i = ix2 r o := ⟨i 0, i 1, eq_ix2 i⟩
  exact result_apply x0 x1 x2 x3 x4 r o

end Cert.ReferenceIdeal.RefValue

end
-- ==== Proof.lean ====
/-
  A radial-basis layer computed by a tiled kernel is its plain reference, on the extended reals.

  The layer maps inputs x [8192, 128], centres c [256, 128], widths s [256], head weights W [8, 256] and bias b [8] to

      out(r, o) = sum over q of  W(o, q) · exp( -max(|x_r|² - 2·<x_r, c_q> + |c_q|², 0) · s(q)² )  +  b(o).

  THE KERNEL precomputes on the host the centres' squared norms, the squared widths and the bias as a column; walks the
  inputs in four blocks of 2048 rows; in each block takes the rows' squared norms by a lane sum, the inner products with
  the centres by a matrix product of narrowed operands, the clipped squared distances, the responses as
  exp ((0 - dist) · width²), and the head's product W · responseᵀ plus the bias column, which it writes as 2048 columns
  of an [8, 8192] array; the host transposes that array at the end. THE REFERENCE computes the same over the whole
  arrays, with the head's product taken as response · Wᵀ.

  At the ideal values a change of float format is the identity, a lane sum, a host sum from the zero word and both kinds
  of matrix product are plain finite sums, and the tiling only says which rows a block holds. Three small laws join the
  two sides, none of which needs the inputs to be finite: 0 + v = v, 0 - v = -v, and the product of two extended reals
  commutes (weight · response against response · weight). So both programs end with the layer, entry by entry:
  Proof/RbfSpec.lean states it, Proof/KernelEntry.lean … KernelResult.lean read it off the kernel's run, and
  Proof/RefValue.lean off the reference's.

  The three frames: each kernel program's is the generated frame; the reference's is its generated run with the result
  forgotten. The idealization rewrote no operation, so there is nothing to preserve.
-/
import proofs.«177459_j73349451481363_2_alg».proof.Defs
import proofs.«177459_j73349451481363_2_alg».proof.Proof.Gen.Kernel
import proofs.«177459_j73349451481363_2_alg».proof.Proof.Gen.Kernel.Skeleton
import proofs.«177459_j73349451481363_2_alg».proof.Proof.Gen.Kernel.Launch
import proofs.«177459_j73349451481363_2_alg».proof.Proof.Gen.Kernel.Points
import proofs.«177459_j73349451481363_2_alg».proof.Proof.Gen.Kernel.Frame
import proofs.«177459_j73349451481363_2_alg».proof.Proof.Gen.KernelIdeal
import proofs.«177459_j73349451481363_2_alg».proof.Proof.Gen.KernelIdeal.Skeleton
import proofs.«177459_j73349451481363_2_alg».proof.Proof.Gen.KernelIdeal.Launch
import proofs.«177459_j73349451481363_2_alg».proof.Proof.Gen.KernelIdeal.Points
import proofs.«177459_j73349451481363_2_alg».proof.Proof.Gen.KernelIdeal.Frame
import proofs.«177459_j73349451481363_2_alg».proof.Proof.Gen.ReferenceIdeal
import proofs.«177459_j73349451481363_2_alg».proof.Proof.Gen.Pre_finite_inputs
import proofs.«177459_j73349451481363_2_alg».proof.Proof.Gen.ReferenceIdeal.Run
import proofs.«177459_j73349451481363_2_alg».proof.Proof.Gen.ReferenceIdeal.Read
import proofs.«177459_j73349451481363_2_alg».proof.Proof.KernelResult
import proofs.«177459_j73349451481363_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- And the reference: its run, with what it says of the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the ideal reading. -/
theorem preserves : Cert.preserves_Kernel_KernelIdeal := trivial

/-- From arguments that agree, the kernel ends with the layer of its arguments in its result buffer and the reference
    with its composed term, which entry by entry is the layer of the same arguments. -/
theorem algebraic : Cert.algebraic_KernelIdeal_ReferenceIdeal := by
  intro m ρ m' ρ' _ hagree
  refine ⟨fun c => Cert.KernelIdeal.Result.layerOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v26_eq _ _ _ _ _).trans (Cert.ReferenceIdeal.RefValue.result_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
